-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_

variable [Facts]

def fn {F : FTy → Type} [FloatOps F] (main_arg0 : FVec F S4x2048x4096 .f32) (main_arg1 : FVec F S16384x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S4x2048x4096 : Shape := ⟨3, ![4, 2048, 4096]⟩
abbrev S16384x4096 : Shape := ⟨2, ![16384, 4096]⟩
abbrev S_ : Shape := ⟨0, ![]⟩
abbrev S8192x4096 : Shape := ⟨2, ![8192, 4096]⟩
abbrev S8192x16384 : Shape := ⟨2, ![8192, 16384]⟩
abbrev S4x2048x16384 : Shape := ⟨3, ![4, 2048, 16384]⟩
abbrev S512x4096 : Shape := ⟨2, ![512, 4096]⟩
abbrev S1024x4096 : Shape := ⟨2, ![1024, 4096]⟩
abbrev S512x1024 : Shape := ⟨2, ![512, 1024]⟩

abbrev nBuf : Space → Nat
  | .hbm => 26
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x2048x4096, .f32⟩
  | .hbm, ⟨10, _⟩ => ⟨S8192x4096, .f32⟩
  | .hbm, ⟨11, _⟩ => ⟨S8192x4096, .bf16⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S_, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .bf16⟩
  | .hbm, ⟨24, _⟩ => ⟨S8192x16384, .f32⟩
  | .hbm, ⟨25, _⟩ => ⟨S4x2048x16384, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S512x1024, .f32⟩
  | .local _ .vmem, ⟨5, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_cst_0 : Ref sig .tc := ⟨.hbm, 5, rfl⟩
abbrev main_call0_v2 : Ref sig .tc := ⟨.hbm, 6, rfl⟩
abbrev main_call0_cst_1 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_cst_2 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_call0_v17 : Ref sig .tc := ⟨.hbm, 23, rfl⟩
abbrev main_call0_v18 : Ref sig .tc := ⟨.hbm, 24, rfl⟩
abbrev main_v0 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S16384x4096_S_d0_1 : S16384x4096.ReducesTo [0, 1] S_
  h_S_ : 0 < S_.numel
  shapeCasts_S4x2048x4096_S8192x4096 : S4x2048x4096.ShapeCasts S8192x4096
  bitsLt_bf16_f32 : FTy.bits .bf16 < FTy.bits .f32
  bcast_S_S16384x4096 : S_.BroadcastsInDim S16384x4096 (![] : Fin 0 → Fin S16384x4096.rank)
  shapeCasts_S8192x16384_S4x2048x16384 : S8192x16384.ShapeCasts S4x2048x16384
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x1024_S512x1024_0_0 : ∀ a, (![0, 0] : Fin 2 → Nat) a + S512x1024.size a ≤ S512x1024.size a
  h_S512x1024 : 0 < S512x1024.numel
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S16384x4096.size a
  hwx0_1 : ∀ i : grid0.Coords, EltTy.bits .bf16 = 32 ∨ (Rect.block (s := S16384x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x16384.size a
  hwx0_2 : ∀ i : grid0.Coords, EltTy.bits .f32 = 32 ∨ (Rect.block (s := S8192x16384) S512x1024.size (cc0_transform_2 i) (hinb0_2 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_call0_v6) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v17) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v18) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S_ : Shape := ⟨0, ![]⟩
abbrev S4x2048x16384 : Shape := ⟨3, ![4, 2048, 16384]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S4x2048x4096, .f32⟩
  | .hbm, ⟨3, _⟩ => ⟨S16384x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S16384x4096_S_d0_1 : S16384x4096.ReducesTo [0, 1] S_
  h_S_ : 0 < S_.numel
  bcast_S_S16384x4096 : S_.BroadcastsInDim S16384x4096 (![] : Fin 0 → Fin S16384x4096.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.LibTransDot.lean ====
/-
  A matrix product with the right operand contracted on its last axis, read at an entry.

  For the dimension numbers of an `M×K` by `N×K` product (contract axis 1 of both operands, no batch axes), the
  contraction sum at the entry `(p, q)`, on the extended reals, is `∑ k, lhs (p, k) · rhs (q, k)`: a row of the
  left operand against a row of the right one. A printed record with these six lists is
  `DotDims.transposedRhs M K N` (the well-formedness field is a proposition), so it is rewritten to it by `rfl`.
-/
import Idealize.ShloMosaic.PureOps.Ideal.Laws
import Idealize.ShloMosaic.Lib.ValueIdx

noncomputable section

namespace Cert.TransDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ =>
    show ((DotDims.transposedRhs M K N).lhsIdx j _ 0).val = (j 0).val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl j _).trans hk

/-- The right operand's index at result entry `j` and contraction position `k` is `(j 1, k)`. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ =>
    show ((DotDims.transposedRhs M K N).rhsIdx j _ 0).val = (j 1).val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl j _).trans hk

/-- The contraction sum at `(p, q)` is the sum over `k` of `lhs (p, k) · rhs (q, k)`. -/
theorem contraction_eq (lhs : (⟨2, ![M, K]⟩ : Shape).Idx → EReal) (rhs : (⟨2, ![N, K]⟩ : Shape).Idx → EReal) (p : Fin M) (q : Fin N) :
    (∑ k : (DotDims.transposedRhs M K N).contr.Idx, lhs ((DotDims.transposedRhs M K N).lhsIdx (ix2 p q) k) * rhs ((DotDims.transposedRhs M K N).rhsIdx (ix2 p q) k))
      = ∑ k : Fin K, lhs (ix2 p k) * rhs (ix2 q k) := by
  rw [← Equiv.sum_comp (contrEquiv1 (DotDims.transposedRhs M K N) K rfl rfl).symm]
  refine Finset.sum_congr rfl fun k _ => ?_
  rw [lhsIdx_eq, rhsIdx_eq]
  rfl

end Cert.TransDot

end
-- ==== Proof.BodyRows.lean ====
/-
  The kernel body at one grid point, read at an entry.

  The body loads a `[512, 4096]` block `x0` of the activations and a `[1024, 4096]` block `x1` of the quantised
  weights and stores their product contracted on the last axis of both, accumulated from zero. On the
  extended reals entry `(p, q)` of the stored block is `∑ k, x0 (p, k) · x1 (q, k)`: row `p` of the activation
  block against row `q` of the weight block.
-/
import proofs.«158597_j90134183674153_2_alg».proof.Proof.Gen.KernelIdeal.Skeleton
import proofs.«158597_j90134183674153_2_alg».proof.Proof.LibTransDot
import Idealize.ShloMosaic.Lib.Pipeline.Value
import Idealize.ShloMosaic.PureOps.Ideal.Laws

noncomputable section

namespace Cert.KernelIdeal.Body

open Idealize.ShloMosaic Idealize.ShloMosaic.ValueIdx Cert.KernelIdeal
open scoped BigOperators

/-- A product contracted on the last axis of both operands into the zero accumulator, at entry `(p, q)`, is the
    sum over `k` of `lhs (p, k) · rhs (q, k)`, for any extents. -/
theorem matmul_zero_rows_apply {M K N : Nat} {φ₁ φ₂ : FTy} (lhs : FVec Ideal ⟨2, ![M, K]⟩ φ₁) (rhs : FVec Ideal ⟨2, ![N, K]⟩ φ₂)
    (p : Fin M) (q : Fin N) :
    FloatOps.matmul (DotDims.transposedRhs M K N) none lhs rhs (constant (F := Ideal) ⟨2, ![M, N]⟩ .f32 0x00000000#32) (ix2 p q)
      = ∑ k : Fin K, lhs (ix2 p k) * rhs (ix2 q k) :=
  (Ideal.matmul_constant_zero_apply _ none lhs rhs (ix2 p q)).trans (Cert.TransDot.contraction_eq lhs rhs p q)

/-- The printed dimension numbers are those of a product contracted on the last axis of both operands. -/
theorem dims_eq : dot_S512x4096_S1024x4096_S512x1024_1_1_0_0_n_n = DotDims.transposedRhs 512 4096 1024 := rfl

/-- The stored block at `(p, q)`: row `p` of the activation block against row `q` of the weight block. -/
theorem pay_apply (x0 : Vec Ideal S512x4096 .bf16) (x1 : Vec Ideal S1024x4096 .bf16) (p : Fin 512) (q : Fin 1024) :
    Gen.k0_pay1 (F := Ideal) x0 x1 (ix2 p q) = ∑ k : Fin 4096, x0 (ix2 p k) * x1 (ix2 q k) := by
  unfold Gen.k0_pay1
  rw [shapeCast_self, shapeCast_self, dims_eq]
  exact matmul_zero_rows_apply x0 x1 p q

end Cert.KernelIdeal.Body

end
-- ==== Proof.LibRowsLinear.lean ====
/-
  A linear layer over a batch of rows, in two layouts.

  An array `x` of extents `[A, B, K]` (a batch of `A·B` rows of length `K`) against a weight matrix `w` of
  extents `[N, K]` gives `y (a, b, o) = ∑ k, x (a, b, k) · w (o, k)`. The same numbers are obtained by first
  flattening the two leading axes of `x` into `M = A·B` rows, taking all row-by-row products
  `z (r, o) = ∑ k, x' (r, k) · w (o, k)`, and splitting the row axis of `z` again: row `r = a·B + b` of the
  flattened array is row `(a, b)` of `x`. Nothing is asked of the entries: each entry of the result is the
  same finite sum of the same products, so the statement holds over any additive commutative monoid with
  a product; it is stated on the extended reals.

  Also here: the two reshapes read at an index, for any extents.
-/
import Idealize.ShloMosaic.Lib.Pipeline.Value
import Idealize.ShloMosaic.Lib.ValueIdx

noncomputable section

namespace Cert.RowsLinear

open Idealize.ShloMosaic Idealize.ShloMosaic.ValueIdx
open scoped BigOperators

variable {α : Type} {A B C M : Nat}

/-- An `[A, B, C]` array reshaped to `[M, C]` (`M = A·B`) reads, at `(r, k)` with `r = a·B + b`, the operand at
    `(a, b, k)`: the two indices have the same row-major position. -/
theorem flatten_apply (x : (⟨3, ![A, B, C]⟩ : Shape).Idx → α)
    (h : (⟨3, ![A, B, C]⟩ : Shape).ShapeCasts ⟨2, ![M, C]⟩) (a : Fin A) (b : Fin B) (k : Fin C) (r : Fin M)
    (hr : r.val = a.val * B + b.val) :
    shapeCast ⟨2, ![M, C]⟩ x h (ix2 r k) = x (ix3 a b k) :=
  shapeCast_apply x h _ _ (by
    rw [Shape.rowMajor_val_three, Shape.rowMajor_val_two]
    show (a.val * B + b.val) * C + k.val = r.val * C + k.val
    rw [hr])

/-- An `[M, C]` array (`M = A·B`) reshaped to `[A, B, C]` reads, at `(a, b, k)`, the operand at `(a·B + b, k)`. -/
theorem split_apply (x : (⟨2, ![M, C]⟩ : Shape).Idx → α)
    (h : (⟨2, ![M, C]⟩ : Shape).ShapeCasts ⟨3, ![A, B, C]⟩) (a : Fin A) (b : Fin B) (k : Fin C) (r : Fin M)
    (hr : r.val = a.val * B + b.val) :
    shapeCast ⟨3, ![A, B, C]⟩ x h (ix3 a b k) = x (ix2 r k) :=
  shapeCast_apply x h _ _ (by
    rw [Shape.rowMajor_val_three, Shape.rowMajor_val_two]
    show r.val * C + k.val = (a.val * B + b.val) * C + k.val
    rw [hr])

variable {K N : Nat}

/-- All products of a row of `xs` with a row of `w`: `z (r, o) = ∑ k, xs (r, k) · w (o, k)`. -/
def rowsProd (xs : (⟨2, ![M, K]⟩ : Shape).Idx → EReal) (w : (⟨2, ![N, K]⟩ : Shape).Idx → EReal) :
    (⟨2, ![M, N]⟩ : Shape).Idx → EReal :=
  fun i => ∑ k : Fin K, xs (ix2 (i 0) k) * w (ix2 (i 1) k)

/-- The linear layer on a batch: `y (a, b, o) = ∑ k, x (a, b, k) · w (o, k)`. -/
def linear (x : (⟨3, ![A, B, K]⟩ : Shape).Idx → EReal) (w : (⟨2, ![N, K]⟩ : Shape).Idx → EReal) :
    (⟨3, ![A, B, N]⟩ : Shape).Idx → EReal :=
  fun i => ∑ k : Fin K, x (ix3 (i 0) (i 1) k) * w (ix2 (i 2) k)

/-- Flattening the batch, multiplying rows by rows and splitting the row axis again is the linear layer on the
    batch: entry `(a, b, o)` of the split array is entry `(a·B + b, o)` of the products, whose left factors are row
    `a·B + b` of the flattened batch, that is row `(a, b)` of `x`. -/
theorem split_rowsProd_flatten (hM : M = A * B) (x : (⟨3, ![A, B, K]⟩ : Shape).Idx → EReal)
    (w : (⟨2, ![N, K]⟩ : Shape).Idx → EReal)
    (h1 : (⟨3, ![A, B, K]⟩ : Shape).ShapeCasts ⟨2, ![M, K]⟩)
    (h2 : (⟨2, ![M, N]⟩ : Shape).ShapeCasts ⟨3, ![A, B, N]⟩) :
    shapeCast ⟨3, ![A, B, N]⟩ (rowsProd (shapeCast ⟨2, ![M, K]⟩ x h1) w) h2 = linear x w := by
  funext i
  obtain ⟨a, b, o, rfl⟩ : ∃ (a : Fin A) (b : Fin B) (o : Fin N), i = ix3 a b o := ⟨i 0, i 1, i 2, eq_ix3 i⟩
  have hlt : a.val * B + b.val < M := by
    rw [hM]
    calc a.val * B + b.val < a.val * B + B := Nat.add_lt_add_left b.isLt _
      _ = (a.val + 1) * B := by rw [Nat.add_mul, Nat.one_mul]
      _ ≤ A * B := Nat.mul_le_mul_right B a.isLt
  rw [split_apply _ h2 a b o ⟨a.val * B + b.val, hlt⟩ rfl]
  unfold rowsProd linear
  refine Finset.sum_congr rfl fun k _ => ?_
  show shapeCast ⟨2, ![M, K]⟩ x h1 (ix2 ⟨a.val * B + b.val, hlt⟩ k) * w (ix2 o k) = x (ix3 a b k) * w (ix2 o k)
  rw [flatten_apply x h1 a b k ⟨a.val * B + b.val, hlt⟩ rfl]

end Cert.RowsLinear

end
-- ==== Proof.Blocks.lean ====
/-
  The product array after the kernel's region.

  The region runs over a 16 × 16 grid. At the point with coordinates `(j, i)` the body reads rows
  `512·i … 512·i + 511` of the activation array `xs` (extents `[8192, 4096]`) and rows `1024·j … 1024·j + 1023` of
  the quantised weight array `wq` (extents `[16384, 4096]`), and writes back block `(i, j)` of the output array
  (extents `[8192, 16384]`, blocks of `[512, 1024]`). Entry `(p, q)` of that block is row `p` of the activation
  block against row `q` of the weight block, that is row `512·i + p` of `xs` against row `1024·j + q` of `wq`:
  the block is the restriction of the one array `z (r, o) = ∑ k, xs (r, k) · wq (o, k)`. The 256 blocks tile
  the output array, so after the region the output array is `z`.
-/
import proofs.«158597_j90134183674153_2_alg».proof.Proof.Gen.KernelIdeal.Frame
import proofs.«158597_j90134183674153_2_alg».proof.Proof.BodyRows
import proofs.«158597_j90134183674153_2_alg».proof.Proof.LibRowsLinear
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.RowsLinear
open scoped BigOperators

variable (m : (ℓ : Loc nD τ sig) → Buf (Elt Ideal) ℓ)

theorem zero_offsets : (![0, 0] : Fin 2 → Nat) = fun _ => 0 := funext fun a => by fin_cases a <;> rfl

/-- A block of row-by-row products is a block of the whole array of products: if `x0` holds the rows of `xs` from
    `o0` on and `x1` the rows of `wq` from `o1` on, row `p` of `x0` against row `q` of `x1` is entry
    `(o0 + p, o1 + q)` of `rowsProd xs wq`. Any extents. -/
theorem rowsProd_block {M K N bm bn : Nat} (xs : (⟨2, ![M, K]⟩ : Shape).Idx → EReal) (wq : (⟨2, ![N, K]⟩ : Shape).Idx → EReal)
    (x0 : (⟨2, ![bm, K]⟩ : Shape).Idx → EReal) (x1 : (⟨2, ![bn, K]⟩ : Shape).Idx → EReal) (o0 o1 : Nat)
    (h0 : ∀ (p : Fin bm) (k : Fin K) (r : Fin M), r.val = o0 + p.val → x0 (ix2 p k) = xs (ix2 r k))
    (h1 : ∀ (q : Fin bn) (k : Fin K) (r : Fin N), r.val = o1 + q.val → x1 (ix2 q k) = wq (ix2 r k))
    (p : Fin bm) (q : Fin bn) (I : (⟨2, ![M, N]⟩ : Shape).Idx) (hI0 : (I 0).val = o0 + p.val) (hI1 : (I 1).val = o1 + q.val) :
    ∑ k : Fin K, x0 (ix2 p k) * x1 (ix2 q k) = rowsProd xs wq I := by
  unfold rowsProd
  refine Finset.sum_congr rfl fun k _ => ?_
  rw [h0 p k (I 0) hI0, h1 q k (I 1) hI1]

/-- What the body stores, at an entry `y` of the block, is the entry `I` of the whole array of products, when the
    loaded blocks are the rows from `o0` and from `o1` on and `I = (o0 + y 0, o1 + y 1)`. -/
theorem stored_entry (xs : S8192x4096.Idx → EReal) (wq : S16384x4096.Idx → EReal)
    (x0 : Vec Ideal S512x4096 .bf16) (x1 : Vec Ideal S1024x4096 .bf16) (o0 o1 : Nat)
    (h0 : ∀ (p : Fin 512) (k : Fin 4096) (r : Fin 8192), r.val = o0 + p.val → x0 (ix2 p k) = xs (ix2 r k))
    (h1 : ∀ (q : Fin 1024) (k : Fin 4096) (r : Fin 16384), r.val = o1 + q.val → x1 (ix2 q k) = wq (ix2 r k))
    (y : S512x1024.Idx) (I : S8192x16384.Idx) (hI0 : (I 0).val = o0 + (y 0).val) (hI1 : (I 1).val = o1 + (y 1).val) :
    k0_pay1 (F := Ideal) x0 x1 y = rowsProd xs wq I := by
  obtain ⟨p, q, rfl⟩ : ∃ (p : Fin 512) (q : Fin 1024), y = ix2 p q := ⟨y 0, y 1, eq_ix2 y⟩
  rw [Cert.KernelIdeal.Body.pay_apply]
  exact rowsProd_block xs wq x0 x1 o0 o1 h0 h1 p q I hI0 hI1

/-- The printed index maps over the grid: the activation window moves with the output's row blocks, the weight
    window with its column blocks, both at column block 0, and the output's block indices stay below 16. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15
    ∧ win0_2.index t (1 : Fin 2) ≤ 15 :=
  (by decide +kernel : ∀ t : Fin grid0.N, _)

/-- Every block of the output array is some point's. -/
theorem idx_onto : ∀ (q0 : Fin 16) (q1 : Fin 16), ∃ t : Fin cfg0.N, win0_2.index t = ![q0.val, q1.val] :=
  (by decide +kernel : ∀ (q0 : Fin 16) (q1 : Fin 16), ∃ t : Fin grid0.N, win0_2.index t = ![q0.val, q1.val])

/-- What a point writes back is its block of the array of products of the activation rows with the weight rows, as
    the region finds the two arrays. -/
theorem flushed_eq (c : Dev nD) (t : Fin cfg0.N) :
    (dats m 0 c).flushed 2 t
      = ((cfg0.win 2).blk t).view.read (Elt Ideal) (rowsProd (V m c main_call0_v6) (V m c main_call0_v17)) := by
  show (cfg0.win 2).cut (grid0.coords t) ((dats m 0 c).after 2 t) = _
  rw [after0_2]
  unfold out0_2
  rw [View.canon_unit_zero zero_offsets]
  simp only [View.ld_unit_zero (S := S512x4096) zero_offsets, View.ld_unit_zero (S := S1024x4096) zero_offsets]
  obtain ⟨e0, e1, e2, e3, e4, e5⟩ := idx_facts t
  funext j
  show k0_pay1 (F := Ideal) (iblk m c 0 t) (iblk m c 1 t) j
    = rowsProd (V m c main_call0_v6) (V m c main_call0_v17) (((cfg0.win 2).blk t).view.emb j)
  refine stored_entry _ _ _ _ (win0_2.index t (0 : Fin 2) * 512) (win0_2.index t (1 : Fin 2) * 1024) ?_ ?_ j _ ?_ ?_
  · intro p k r hr
    show V m c main_call0_v6 (((cfg0.win 0).blk t).view.emb (ix2 p k)) = V m c main_call0_v6 (ix2 r k)
    refine congrArg _ (funext fun a => Fin.ext ?_)
    match a with
    | ⟨0, _⟩ => show win0_0.index t (0 : Fin 2) * 512 + 1 * p.val = r.val; omega
    | ⟨1, _⟩ => show win0_0.index t (1 : Fin 2) * 4096 + 1 * k.val = k.val; omega
  · intro q k r hr
    show V m c main_call0_v17 (((cfg0.win 1).blk t).view.emb (ix2 q k)) = V m c main_call0_v17 (ix2 r k)
    refine congrArg _ (funext fun a => Fin.ext ?_)
    match a with
    | ⟨0, _⟩ => show win0_1.index t (0 : Fin 2) * 1024 + 1 * q.val = r.val; omega
    | ⟨1, _⟩ => show win0_1.index t (1 : Fin 2) * 4096 + 1 * k.val = k.val; omega
  · show win0_2.index t (0 : Fin 2) * 512 + 1 * (j 0).val = _; omega
  · show win0_2.index t (1 : Fin 2) * 1024 + 1 * (j 1).val = _; omega

/-- An index of the output array is in point `t`'s block iff each coordinate is in the block's range on its axis. -/
theorem mem_blk (t : Fin cfg0.N) (i : S8192x16384.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_call0_v18).slice (win0_2.rect t)).set ↔ _
  rw [View.set_slice_whole, Rect.mem_set_unit]
  exact Iff.rfl

/-- The blocks tile the output array: entry `(r, o)` is in the block of the point whose output block index is
    `(r / 512, o / 1024)`. -/
theorem covered (i : S8192x16384.Idx) :
    ∃ t : Fin cfg0.N, (cfg0.win 2).flush t = true ∧ i ∈ ((cfg0.win 2).blk t).view.set := by
  have hi0 : (i 0).val < 8192 := (i 0).isLt
  have hi1 : (i 1).val < 16384 := (i 1).isLt
  obtain ⟨t, ht⟩ := idx_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The output array after the region: every product of a row of the activation array with a row of the weight
    array, as the region finds the two. -/
theorem final (c : Dev nD) :
    (dats m 0 c).arrAt 2 cfg0.N = rowsProd (V m c main_call0_v6) (V m c main_call0_v17) :=
  (dats m 0 c).arrAt_eq_of_cover 2 _ (fun t _ => flushed_eq m c t) covered

end Cert.KernelIdeal.Blocks

end
-- ==== Proof.LibHostRead.lean ====
/-
  Reading a buffer after a stretch of host operations, some of them from outlined functions.

  The contents of a device's buffers after a list of host operations are a fold over the list (`StableHlo.after`): each
  operation replaces its result buffer by its function of its operands' contents and leaves every other buffer. Read at one
  buffer, the fold is that buffer's composed term of the contents before the list.

  An outlined function's operations (a `where`, a `relu`) name their buffers through typed references, and what such an
  operation reads or writes is moved between the value's type and the buffer's own type by a transport along an equation
  between the two types. For a typed reference to a literal buffer that equation holds by computation, so the transport is
  the identity: `toBuf_of` and `ofBuf_of`, by reflexivity, for any signature and any type of values. Rewriting with them
  removes every transport from a composed term. That matters for what comes next: an equation between two composed terms
  with the same operations at the same places is decided argument by argument, but a transport at the head of one side
  hides that, and the comparison then opens `select`, the float comparison or `maximumf` down to their elementwise
  definitions and from there the host's scatter and gather over their whole index ranges.

  `read_results` does the reading: one simp pass over the fold; then, for results the pass leaves standing inside a list
  of operands (the pieces of a `concatenate`), the same two rules by rewriting in place until none applies; then the
  transports. What is left is an equation between terms of the PureOps operations over the contents before the list.
-/
import Idealize.ShloMosaic.Lib.StableHlo.Run

namespace Cert.HostRead

open Idealize.ShloMosaic Idealize.ShloMosaic.StableHlo

variable {sig : RefSig} {Val : EltTy → Type}

/-- Contents moved to a literal buffer's own type are themselves. -/
theorem toBuf_of (r : Ref sig .tc) (h1 : r.ty = r.ty) (h2 : r.space ≠ .host) (h3 : r.isScoped = false)
    (v : r.ty.Contents Val) : (TRef.of r h1 h2 h3 : TRef sig r.ty).toBuf v = v := rfl

/-- Contents moved back from a literal buffer's own type are themselves. -/
theorem ofBuf_of (r : Ref sig .tc) (h1 : r.ty = r.ty) (h2 : r.space ≠ .host) (h3 : r.isScoped = false)
    (v : r.ty.Contents Val) : (TRef.of r h1 h2 h3 : TRef sig r.ty).ofBuf v = v := rfl

/-- Reads a goal `after ops V (Proc.devRef .tc r) = …`, `ops` a literal list of operations over literal buffers, as the
    operations' composed term of `V` at the buffers the list does not write. -/
macro "read_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             repeat (first | rw [toBuf_of] | rw [ofBuf_of])))

end Cert.HostRead
-- ==== Proof.HostSide.lean ====
/-
  The host operations around the region, and the kernel program's result.

  Before the region the program computes, from the activations `x` (extents `[4, 2048, 4096]`) and the weights `w`
  (extents `[16384, 4096]`): the activation rows `xs = sign x` flattened to `[8192, 4096]`, and the quantised weights
  `wq = sign (w / γ) · min (round |w / γ|, 1)` with `γ = (∑ |w|) / 2²⁶ + ε` — the same operations, in the same order,
  as the reference applies to `w`; a change of float format is the identity on the extended reals. After the region
  the array of row-by-row products is split back to `[4, 2048, 16384]`. So the result at `(b, s, o)` is
  `∑ k, sign x (b, s, k) · wq (o, k)`.
-/
import proofs.«158597_j90134183674153_2_alg».proof.Proof.Blocks
import proofs.«158597_j90134183674153_2_alg».proof.Proof.LibHostRead
import proofs.«158597_j90134183674153_2_alg».proof.Proof.Gen.ReferenceIdeal.Read

set_option maxRecDepth 16384

noncomputable section

namespace Cert.KernelIdeal.HostSide

open Idealize.ShloMosaic Idealize.ShloMosaic.TcCoe Idealize.ShloMosaic.ValueIdx Idealize.SL.Sem Idealize.ShloMosaic.StableHlo
open Cert.KernelIdeal Cert.KernelIdeal.Gen Cert.RowsLinear Cert.HostRead
open scoped BigOperators

variable (m : (ℓ : Loc nD τ sig) → Buf (Elt Ideal) ℓ)

/-- The activation rows as the region finds them: the signs of `x`, flattened. -/
theorem acts_eq (c : Dev nD) :
    (V m c main_call0_v6 : S8192x4096.Idx → EReal)
      = shapeCast S8192x4096 (Host.sign (F := Ideal) (m ((c : Thread nD τ).loc main_arg0)) : FVec Ideal S4x2048x4096 .f32) shapeCasts_S4x2048x4096_S8192x4096 := by
  show StableHlo.after hostOps0 (fun b => m (c, b)) (Proc.devRef .tc main_call0_v6) = _
  read_results
  rfl

/-- The quantised weights as the region finds them: the reference's own operations applied to `w` (its value
    `sign (w / γ) · min (round |w / γ|, 1)`), the change of float format being the identity. -/
theorem weights_eq (c : Dev nD) :
    (V m c main_call0_v17 : S16384x4096.Idx → EReal)
      = Cert.ReferenceIdeal.Read.val_main_v12 (F := Ideal) (m ((c : Thread nD τ).loc main_arg1)) := by
  show StableHlo.after hostOps0 (fun b => m (c, b)) (Proc.devRef .tc main_call0_v17) = _
  read_results
  rfl

/-- The program's result buffer after the whole run: the array of row-by-row products, split back into the batch. -/
theorem out_eq (c : Dev nD) :
    Pipeline.afterTail₀ cfgs (dats m) 0 (V0 m) [hostOps1] c main_v0
      = linear (A := 4) (B := 2048) (K := 4096) (N := 16384)
          (Host.sign (F := Ideal) (m ((c : Thread nD τ).loc main_arg0)) : FVec Ideal S4x2048x4096 .f32)
          (Cert.ReferenceIdeal.Read.val_main_v12 (F := Ideal) (m ((c : Thread nD τ).loc main_arg1))) := by
  have hA : Pipeline.withArrays spec0 c (V0 m c) (fun w => (dats m 0 c).arrAt w cfg0.N) (Proc.devRef .tc main_call0_v18)
      = rowsProd (V m c main_call0_v6) (V m c main_call0_v17) :=
    (Pipeline.withArrays_arr spec0 launch0.win.arr_inj c _ _ 2).trans (Cert.KernelIdeal.Blocks.final m c)
  unfold Pipeline.afterTail₀
  show StableHlo.after hostOps1 _ (Proc.devRef .tc main_v0) = _
  read_results
  rw [hA, acts_eq, weights_eq]
  exact split_rowsProd_flatten (A := 4) (B := 2048) (M := 8192) (K := 4096) (N := 16384) (by norm_num) _ _ _ _

/-- The kernel program's run, read: every weakly fair execution terminates with the result buffer at the linear
    layer of the quantised weights on the signs of the activations, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v0)
        = linear (A := 4) (B := 2048) (K := 4096) (N := 16384)
            (Host.sign (F := Ideal) (m ((c : Thread nD τ).loc main_arg0)) : FVec Ideal S4x2048x4096 .f32)
            (Cert.ReferenceIdeal.Read.val_main_v12 (F := Ideal) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v0 (Pipeline.mem_restRefs_of main_v0 (by decide) (by decide))).trans (out_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.HostSide

end
-- ==== Proof.RefSide.lean ====
/-
  The reference's result, read at an entry.

  The reference contracts the last axis of the sign array `sign x` (extents `[4, 2048, 4096]`) with the last axis of
  the quantised weights (extents `[16384, 4096]`). On the extended reals entry `(b, s, o)` of the result is
  `∑ k, sign x (b, s, k) · wq (o, k)`: the linear layer on the batch of rows.
-/
import proofs.«158597_j90134183674153_2_alg».proof.Proof.Gen.ReferenceIdeal.Read
import proofs.«158597_j90134183674153_2_alg».proof.Proof.LibRowsLinear

noncomputable section

namespace Cert.ReferenceIdeal.RefSide

open Idealize.ShloMosaic Idealize.ShloMosaic.ValueIdx
open Cert.ReferenceIdeal Cert.ReferenceIdeal.Read Cert.RowsLinear
open scoped BigOperators

/-- The left operand's index at result entry `i` and contraction position `k` is `(i 0, i 1, k)`. -/
theorem lidx_eq (i : S4x2048x16384.Idx) (k : Fin 4096) : lidx_main_v13 i k = ix3 (i 0) (i 1) k :=
  funext fun a => by match a with | ⟨0, _⟩ => rfl | ⟨1, _⟩ => rfl | ⟨2, _⟩ => rfl

/-- The right operand's index at result entry `i` and contraction position `k` is `(i 2, k)`. -/
theorem ridx_eq (i : S4x2048x16384.Idx) (k : Fin 4096) : ridx_main_v13 i k = ix2 (i 2) k :=
  funext fun a => by match a with | ⟨0, _⟩ => rfl | ⟨1, _⟩ => rfl

/-- The reference's result is the linear layer of the quantised weights on the signs of the activations. -/
theorem result_eq (x0 : (⟨S4x2048x4096, .f32⟩ : BufTy).Contents (Elt Ideal)) (x1 : (⟨S16384x4096, .f32⟩ : BufTy).Contents (Elt Ideal)) :
    val_main_v13 (F := Ideal) x0 x1
      = linear (A := 4) (B := 2048) (K := 4096) (N := 16384) (val_main_v0 (F := Ideal) x0) (val_main_v12 (F := Ideal) x1) := by
  funext i
  rw [val_main_v13_apply]
  unfold linear
  refine Finset.sum_congr rfl fun k _ => ?_
  rw [lidx_eq, ridx_eq]
  rfl

end Cert.ReferenceIdeal.RefSide

end
-- ==== Proof.lean ====
/-
  A ternary-weight linear layer on sign-binarised activations: the tiled kernel against the one-line reference.

  Both programs compute, from activations `x` (extents `[4, 2048, 4096]`) and weights `w` (extents `[16384, 4096]`),
  the array `y (b, s, o) = ∑ k, sign x (b, s, k) · wq (o, k)`, where the quantised weights are
  `wq = sign (w / γ) · min (round |w / γ|, 1)` and `γ = (∑ |w|) / 2²⁶ + ε`.

  The reference contracts the two arrays in one operation (`RefSide`). The kernel program applies the same
  operations to `w` and takes the signs of `x`, flattens the batch into `8192` rows, changes both operands to a
  narrower float format (the identity on the extended reals), multiplies rows by rows block by block over a
  16 × 16 grid — each point a `[512, 4096]` block of rows against a `[1024, 4096]` block of weight rows, accumulated
  from zero (`BodyRows`) —, the 256 blocks tiling the array of all row-by-row products (`Blocks`), and splits the
  row axis back into the batch (`HostSide`, `LibRowsLinear`). Each entry of either result is the same finite
  sum of the same products, so no finiteness of the inputs is used.

  The kernel's idealization rewrites no operation, so that claim is trivial; the three frames are the generated
  frame runs (the reference's is its generated run with the result dropped).
-/
import proofs.«158597_j90134183674153_2_alg».proof.Defs
import proofs.«158597_j90134183674153_2_alg».proof.Proof.Gen.Kernel
import proofs.«158597_j90134183674153_2_alg».proof.Proof.Gen.Kernel.Skeleton
import proofs.«158597_j90134183674153_2_alg».proof.Proof.Gen.Kernel.Launch
import proofs.«158597_j90134183674153_2_alg».proof.Proof.Gen.Kernel.Points
import proofs.«158597_j90134183674153_2_alg».proof.Proof.Gen.Kernel.Frame
import proofs.«158597_j90134183674153_2_alg».proof.Proof.Gen.KernelIdeal
import proofs.«158597_j90134183674153_2_alg».proof.Proof.Gen.KernelIdeal.Skeleton
import proofs.«158597_j90134183674153_2_alg».proof.Proof.Gen.KernelIdeal.Launch
import proofs.«158597_j90134183674153_2_alg».proof.Proof.Gen.KernelIdeal.Points
import proofs.«158597_j90134183674153_2_alg».proof.Proof.Gen.KernelIdeal.Frame
import proofs.«158597_j90134183674153_2_alg».proof.Proof.Gen.ReferenceIdeal
import proofs.«158597_j90134183674153_2_alg».proof.Proof.Gen.ReferenceIdeal.Run
import proofs.«158597_j90134183674153_2_alg».proof.Proof.Gen.ReferenceIdeal.Read
import proofs.«158597_j90134183674153_2_alg».proof.Proof.Gen.Pre_finite_inputs
import proofs.«158597_j90134183674153_2_alg».proof.Proof.HostSide
import proofs.«158597_j90134183674153_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the kernel program on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories agreeing on `x` and `w` both programs end with the linear layer of the quantised weights on the
    signs of the activations in their result buffers. -/
theorem algebraic : Cert.algebraic_KernelIdeal_ReferenceIdeal := by
  intro m ρ m' ρ' _ hagree
  refine ⟨_, Cert.KernelIdeal.HostSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefSide.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
